-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel

variable [Facts]

def fn {F : FTy → Type} [FloatOps F] (main_arg0 : FVec F S2x8x2048x64 .f32) (main_arg1 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  main_v8
-- ==== Kernel.lean ====
abbrev S2x8x2048x64 : Shape := ⟨4, ![2, 8, 2048, 64]⟩
abbrev S16x2048x64 : Shape := ⟨3, ![16, 2048, 64]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S16x2048x2048 : Shape := ⟨3, ![16, 2048, 2048]⟩
abbrev S1x1024x64 : Shape := ⟨3, ![1, 1024, 64]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S1024x64 : Shape := ⟨2, ![1024, 64]⟩
abbrev S1024x1024 : Shape := ⟨2, ![1024, 1024]⟩
abbrev S1024x1 : Shape := ⟨2, ![1024, 1]⟩
abbrev S1x1024 : Shape := ⟨2, ![1, 1024]⟩
abbrev S2x8x2048x2048 : Shape := ⟨4, ![2, 8, 2048, 2048]⟩

abbrev nBuf : Space → Nat
  | .hbm => 21
  | .vmem => 10
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S16x2048x64, .f32⟩
  | .hbm, ⟨3, _⟩ => ⟨S16x2048x64, .f32⟩
  | .hbm, ⟨4, _⟩ => ⟨S16x2048x64, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S16x2048x64, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x1x2048, .f32⟩
  | .hbm, ⟨19, _⟩ => ⟨S16x2048x2048, .f32⟩
  | .hbm, ⟨20, _⟩ => ⟨S2x8x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S2x8x2048x64_S16x2048x64 : S2x8x2048x64.ShapeCasts S16x2048x64
  reducesTo_S16x2048x64_S16x2048_d2 : S16x2048x64.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  transposes_S16x2048x1_S16x1x2048_0_2_1 : S16x2048x1.Transposes [0, 2, 1] S16x1x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x1024 : S1024x1.Broadcasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S16x2048x2048_S2x8x2048x2048 : S16x2048x2048.ShapeCasts S2x8x2048x2048
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x2048x64.size a
  hwx0_0 : ∀ i : grid0.Coords, EltTy.bits .f32 = 32 ∨ (Rect.block (s := S16x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x2048x64.size a
  hwx0_1 : ∀ i : grid0.Coords, EltTy.bits .f32 = 32 ∨ (Rect.block (s := S16x2048x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x2048x1.size a
  hwx0_2 : ∀ i : grid0.Coords, EltTy.bits .f32 = 32 ∨ (Rect.block (s := S16x2048x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S16x1x2048.size a
  hwx0_3 : ∀ i : grid0.Coords, EltTy.bits .f32 = 32 ∨ (Rect.block (s := S16x1x2048) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x2048x2048.size a
  hwx0_4 : ∀ i : grid0.Coords, EltTy.bits .f32 = 32 ∨ (Rect.block (s := S16x2048x2048) S1x1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S_ : Shape := ⟨0, ![]⟩
abbrev S2x8x2048 : Shape := ⟨3, ![2, 8, 2048]⟩
abbrev S2x8x2048x1 : Shape := ⟨4, ![2, 8, 2048, 1]⟩
abbrev S2x8x2048x2048 : Shape := ⟨4, ![2, 8, 2048, 2048]⟩
abbrev S2x8x1x2048 : Shape := ⟨4, ![2, 8, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S_, .f32⟩
  | .hbm, ⟨4, _⟩ => ⟨S2x8x2048, .f32⟩
  | .hbm, ⟨5, _⟩ => ⟨S2x8x2048x1, .f32⟩
  | .hbm, ⟨6, _⟩ => ⟨S_, .f32⟩
  | .hbm, ⟨7, _⟩ => ⟨S2x8x2048x1, .f32⟩
  | .hbm, ⟨8, _⟩ => ⟨S2x8x2048x1, .f32⟩
  | .hbm, ⟨9, _⟩ => ⟨S2x8x2048x64, .f32⟩
  | .hbm, ⟨10, _⟩ => ⟨S_, .f32⟩
  | .hbm, ⟨11, _⟩ => ⟨S2x8x2048, .f32⟩
  | .hbm, ⟨12, _⟩ => ⟨S2x8x2048x1, .f32⟩
  | .hbm, ⟨13, _⟩ => ⟨S_, .f32⟩
  | .hbm, ⟨14, _⟩ => ⟨S2x8x2048x1, .f32⟩
  | .hbm, ⟨15, _⟩ => ⟨S2x8x2048x1, .f32⟩
  | .hbm, ⟨16, _⟩ => ⟨S2x8x2048x2048, .f32⟩
  | .hbm, ⟨17, _⟩ => ⟨S2x8x2048x2048, .f32⟩
  | .hbm, ⟨18, _⟩ => ⟨S2x8x2048x2048, .f32⟩
  | .hbm, ⟨19, _⟩ => ⟨S2x8x1x2048, .f32⟩
  | .hbm, ⟨20, _⟩ => ⟨S2x8x2048x2048, .f32⟩
  | .hbm, ⟨21, _⟩ => ⟨S2x8x2048x2048, .f32⟩
  | .hbm, ⟨22, _⟩ => ⟨S_, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S2x8x2048x64_S2x8x2048_d3 : S2x8x2048x64.ReducesTo [3] S2x8x2048
  h_S_ : 0 < S_.numel
  bcast_S2x8x2048_S2x8x2048x1_0_1_2 : S2x8x2048.BroadcastsInDim S2x8x2048x1 (![0, 1, 2] : Fin 3 → Fin S2x8x2048x1.rank)
  bcast_S_S2x8x2048x1 : S_.BroadcastsInDim S2x8x2048x1 (![] : Fin 0 → Fin S2x8x2048x1.rank)
  bcast_S2x8x2048x1_S2x8x2048x2048_0_1_2_3 : S2x8x2048x1.BroadcastsInDim S2x8x2048x2048 (![0, 1, 2, 3] : Fin 4 → Fin S2x8x2048x2048.rank)
  transposes_S2x8x2048x1_S2x8x1x2048_0_1_3_2 : S2x8x2048x1.Transposes [0, 1, 3, 2] S2x8x1x2048
  bcast_S2x8x1x2048_S2x8x2048x2048_0_1_2_3 : S2x8x1x2048.BroadcastsInDim S2x8x2048x2048 (![0, 1, 2, 3] : Fin 4 → Fin S2x8x2048x2048.rank)
  bcast_S_S2x8x2048x2048 : S_.BroadcastsInDim S2x8x2048x2048 (![] : Fin 0 → Fin S2x8x2048x2048.rank)
  dot_S2x8x2048x64_S2x8x2048x64_S2x8x2048x2048_3_3_2_2_01_01_wf : DotDims.WF S2x8x2048x64 S2x8x2048x64 S2x8x2048x2048 [3] [3] [2] [2] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf

class Facts : Prop extends Facts₀ where

variable [Facts]
-- ==== Proof.Spec.lean ====
/-
  The function both programs compute, stated once over the extended reals.

  For query rows q(b,h,i,·) and key rows k(b,h,j,·) of length 64 the result entry (b,h,i,j) is
      exp (min (⟨q_i, k_j⟩ + (−½)·(0 + Σ_d q_i(d)²) + (−½)·(0 + Σ_d k_j(d)²), 0)),
  the clamped Gaussian similarity exp(−½‖q_i − k_j‖²) written the way both programs evaluate it:
  the inner product first, then the query row's term, then the key row's term, added in that order.
  The literals −½ and 0 are kept as the 32-bit words the programs print (the same words on both
  sides, so they are never evaluated).

  `G` states it over the [2, 8, 2048, 64] arguments; `G3` states the same entry over arrays whose
  two leading axes are merged into one of extent 16, with the two half-norm terms supplied as a
  column [16, 2048, 1] and a row [16, 1, 2048] — the form in which the tiled program sees it.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The arguments' shape, the result's, and the merged-batch shapes. -/
abbrev SArg : Shape := ⟨4, ![2, 8, 2048, 64]⟩
abbrev SOut : Shape := ⟨4, ![2, 8, 2048, 2048]⟩
abbrev SArg3 : Shape := ⟨3, ![16, 2048, 64]⟩
abbrev SCol3 : Shape := ⟨3, ![16, 2048, 1]⟩
abbrev SRow3 : Shape := ⟨3, ![16, 1, 2048]⟩
abbrev SOut3 : Shape := ⟨3, ![16, 2048, 2048]⟩

/-- A row's half-norm term: (−½) · (0 + Σ_d f(d)²). -/
def halfNegSq (f : Fin 64 → EReal) : EReal :=
  Ideal.ofBits .f32 0xBF000000#32 * (Ideal.ofBits .f32 0x00000000#32 + ∑ d : Fin 64, f d * f d)

/-- One entry from the inner product and the two half-norm terms: exp (min (dot + a + b, 0)). -/
def entry (dot a b : EReal) : EReal :=
  Ideal.exp (min (dot + a + b) (Ideal.ofBits .f32 0x00000000#32))

/-- The result over the arguments as given: entry (b, h, i, j) from query row (b, h, i) and key row (b, h, j). -/
def G (q k : SArg.Idx → EReal) : SOut.Idx → EReal := fun o =>
  entry (∑ d : Fin 64, q (ix4 (o 0) (o 1) (o 2) d) * k (ix4 (o 0) (o 1) (o 3) d))
    (halfNegSq fun d => q (ix4 (o 0) (o 1) (o 2) d))
    (halfNegSq fun d => k (ix4 (o 0) (o 1) (o 3) d))

/-- The same entry over merged-batch arrays, the half-norm terms given as a column `a` and a row `b`. -/
def G3 (q k : SArg3.Idx → EReal) (a : SCol3.Idx → EReal) (b : SRow3.Idx → EReal) : SOut3.Idx → EReal := fun o =>
  entry (∑ d : Fin 64, q (ix3 (o 0) (o 1) d) * k (ix3 (o 0) (o 2) d))
    (a (ix3 (o 0) (o 1) (0 : Fin 1))) (b (ix3 (o 0) (0 : Fin 1) (o 2)))

/-- The merged batch coordinate 8·b + h of a pair (b, h). -/
def bh (b : Fin 2) (h : Fin 8) : Fin 16 := ⟨8 * b.val + h.val, by have := b.isLt; have := h.isLt; omega⟩

theorem bh_val (b : Fin 2) (h : Fin 8) : (bh b h).val = 8 * b.val + h.val := rfl

/-- `G` at (b, h, i, j) is `G3` at (8·b + h, i, j) of arrays that hold, at the merged coordinate, the
    arguments' rows and their half-norm terms. -/
theorem G_eq_G3 (q k : SArg.Idx → EReal) (q3 k3 : SArg3.Idx → EReal) (a : SCol3.Idx → EReal) (b' : SRow3.Idx → EReal)
    (hq : ∀ b h i d, q3 (ix3 (bh b h) i d) = q (ix4 b h i d))
    (hk : ∀ b h i d, k3 (ix3 (bh b h) i d) = k (ix4 b h i d))
    (ha : ∀ n i, a (ix3 n i (0 : Fin 1)) = halfNegSq fun d => q3 (ix3 n i d))
    (hb : ∀ n j, b' (ix3 n (0 : Fin 1) j) = halfNegSq fun d => k3 (ix3 n j d))
    (b : Fin 2) (h : Fin 8) (i j : Fin 2048) :
    G3 q3 k3 a b' (ix3 (bh b h) i j) = G q k (ix4 b h i j) := by
  show entry _ _ _ = entry _ _ _
  rw [ha, hb]
  simp only [hq, hk]

end Cert.Rbf

end
-- ==== Proof.Tile.lean ====
/-
  One tile of the result, index by index.

  The tiled program's body takes a block of 1024 query rows, a block of 1024 key rows, the query
  rows' half-norm terms as a column and the key rows' as a row, and stores a 1024 × 1024 tile.
  Entry (p, j) of the tile is exp (min (⟨q_p, k_j⟩ + a_p + b_j, 0)): the matrix product contracts
  the length-64 axis of BOTH operands (row p of the first against row j of the second) into a zero
  accumulator, so it is the plain sum Σ_d q_p(d)·k_j(d); narrowing the operands to a shorter float
  format changes nothing over the extended reals; the column is repeated along the columns and the
  row along the rows before the two additions. The unit leading axis of every block is dropped on
  the way in and put back on the way out.
-/
import proofs.«156044_j75196287418964_2_alg».proof.Proof.Gen.KernelIdeal.Skeleton
import proofs.«156044_j75196287418964_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Tile

open Idealize.ShloMosaic Idealize.ShloMosaic.ValueIdx Cert.KernelIdeal Cert.KernelIdeal.Gen Cert.KernelIdeal.Facts₀ Cert.Rbf

variable [Cert.KernelIdeal.Facts]

/-- A column [a, 1] repeated along the columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's index maps, coordinate by coordinate: at output (p, c) and contraction position d the first
    operand is read at (p, d) and the second at (c, d). -/
theorem lhs_row (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
theorem lhs_contr (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_row (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
theorem rhs_contr (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The tile's matrix product: rows of the first operand against ROWS of the second, into zero. -/
theorem rowsDot_apply (l r : FVec Ideal S1024x64 .bf16) (p c : Fin 1024) :
    matmul dot_S1024x64_S1024x64_S1024x1024_1_1_0_0_n_n none l r (constant (F := Ideal) S1024x1024 .f32 0x00000000#32) (ix2 p c)
      = ∑ d : Fin 64, l (ix2 p d) * r (ix2 c d) := by
  simp only [matmul]
  rw [Ideal.matmul_constant_zero_apply,
    ← Equiv.sum_comp (contrEquiv1 dot_S1024x64_S1024x64_S1024x1024_1_1_0_0_n_n 64 rfl rfl).symm]
  refine Finset.sum_congr rfl fun d _ => ?_
  have hd := contrEquiv1_symm_val dot_S1024x64_S1024x64_S1024x1024_1_1_0_0_n_n 64 rfl rfl d
  have el : dot_S1024x64_S1024x64_S1024x1024_1_1_0_0_n_n.lhsIdx (ix2 p c) ((contrEquiv1 dot_S1024x64_S1024x64_S1024x1024_1_1_0_0_n_n 64 rfl rfl).symm d) = ix2 p d :=
    funext fun a => Fin.ext (by
      match a with
      | ⟨0, _⟩ => exact lhs_row _ _
      | ⟨1, _⟩ => exact (lhs_contr _ _).trans hd)
  have er : dot_S1024x64_S1024x64_S1024x1024_1_1_0_0_n_n.rhsIdx (ix2 p c) ((contrEquiv1 dot_S1024x64_S1024x64_S1024x1024_1_1_0_0_n_n 64 rfl rfl).symm d) = ix2 c d :=
    funext fun a => Fin.ext (by
      match a with
      | ⟨0, _⟩ => exact rhs_row _ _
      | ⟨1, _⟩ => exact (rhs_contr _ _).trans hd)
  rw [el, er]

/-- THE TILE at (p, j), from the four blocks the body loads. -/
theorem tile_apply (x0 x1 : Vec Ideal S1x1024x64 .f32) (x2 : Vec Ideal S1x1024x1 .f32) (x3 : Vec Ideal S1x1x1024 .f32)
    (u : Fin 1) (p j : Fin 1024) :
    k0_pay1 (F := Ideal) x0 x1 x2 x3 (ix3 u p j)
      = entry (∑ d : Fin 64, x0 (ix3 (0 : Fin 1) p d) * x1 (ix3 (0 : Fin 1) j d))
          (x2 (ix3 (0 : Fin 1) p (0 : Fin 1))) (x3 (ix3 (0 : Fin 1) (0 : Fin 1) j)) := by
  unfold k0_pay1 entry
  refine (shapeCast_ab_1ab_apply _ _ u p j).trans ?_
  show Ideal.exp (min (_ + _ + _) _) = _
  refine congrArg Ideal.exp (congrArg (fun t => min t (Ideal.ofBits .f32 0x00000000#32)) ?_)
  refine congrArg₂ (· + ·) (congrArg₂ (· + ·) ?_ ?_) ?_
  · refine (rowsDot_apply _ _ p j).trans (Finset.sum_congr rfl fun d _ => ?_)
    rw [truncf_apply, truncf_apply, shapeCast_1ab_ab_apply, shapeCast_1ab_ab_apply]
  · exact (broadcastTo_a1_ab_apply _ _ p j).trans (shapeCast_1ab_ab_apply _ _ p (0 : Fin 1))
  · exact (broadcastTo_1b_ab_apply _ _ p j).trans (shapeCast_1ab_ab_apply _ _ (0 : Fin 1) j)

end Cert.Rbf.Tile

end
-- ==== Proof.Blocks.lean ====
/-
  From tiles to the whole array.

  The grid has 16 × 2 × 2 points; point (n, r, c) reads query rows 1024·r … 1024·r + 1023 and key
  rows 1024·c … 1024·c + 1023 of batch n (with the matching pieces of the half-norm column and row)
  and writes tile (r, c) of batch n. So what a point writes back is the restriction, to its tile, of
  ONE function of the four arrays the region reads: `G3`. The 64 tiles cover the [16, 2048, 2048]
  array (the tile of entry (n, i, j) is (n, i / 1024, j / 1024)), hence the array ends holding `G3`.
-/
import proofs.«156044_j75196287418964_2_alg».proof.Proof.Gen.KernelIdeal.Frame
import proofs.«156044_j75196287418964_2_alg».proof.Proof.Tile
import Idealize.ShloMosaic.Lib.Pipeline.Value

set_option maxRecDepth 16384

noncomputable section

namespace Cert.Rbf.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Facts₀ Cert.Rbf

variable (m : (ℓ : Loc nD τ sig) → Buf (Elt Ideal) ℓ)

theorem hz : (![0, 0, 0] : Fin 3 → Nat) = fun _ => 0 := funext fun a => by fin_cases a <;> rfl

/-- A tile entry is an entry of `G3` once each loaded block is known to hold the rows the entry reads. -/
theorem tile_eq_G3_at (Q K : SArg3.Idx → EReal) (A : SCol3.Idx → EReal) (B : SRow3.Idx → EReal)
    (x0 x1 : Vec Ideal S1x1024x64 .f32) (x2 : Vec Ideal S1x1024x1 .f32) (x3 : Vec Ideal S1x1x1024 .f32)
    (y : S1x1024x1024.Idx) (o : SOut3.Idx)
    (h0 : ∀ d : Fin 64, x0 (ix3 (0 : Fin 1) (y 1) d) = Q (ix3 (o 0) (o 1) d))
    (h1 : ∀ d : Fin 64, x1 (ix3 (0 : Fin 1) (y 2) d) = K (ix3 (o 0) (o 2) d))
    (h2 : x2 (ix3 (0 : Fin 1) (y 1) (0 : Fin 1)) = A (ix3 (o 0) (o 1) (0 : Fin 1)))
    (h3 : x3 (ix3 (0 : Fin 1) (0 : Fin 1) (y 2)) = B (ix3 (o 0) (0 : Fin 1) (o 2))) :
    k0_pay1 (F := Ideal) x0 x1 x2 x3 y = G3 Q K A B o := by
  refine ((congrArg (k0_pay1 (F := Ideal) x0 x1 x2 x3) (eq_ix3 y)).trans
    (Tile.tile_apply x0 x1 x2 x3 (y 0) (y 1) (y 2))).trans ?_
  unfold G3
  simp only [h0, h1, h2, h3]

/-- The printed index maps, decided over the 64 points: which block of each input moves with the output's tile. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = win0_4.index t (2 : Fin 3) ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = 0 ∧ win0_3.index t (2 : Fin 3) = win0_4.index t (2 : Fin 3)
    ∧ win0_4.index t (0 : Fin 3) ≤ 15 ∧ win0_4.index t (1 : Fin 3) ≤ 1 ∧ win0_4.index t (2 : Fin 3) ≤ 1 :=
  (by decide +kernel : ∀ t : Fin grid0.N, _)

/-- Every tile is some point's. -/
theorem idx_onto : ∀ (q0 : Fin 16) (q1 : Fin 2) (q2 : Fin 2), ∃ t : Fin cfg0.N, win0_4.index t = ![q0.val, q1.val, q2.val] :=
  (by decide +kernel : ∀ (q0 : Fin 16) (q1 : Fin 2) (q2 : Fin 2), ∃ t : Fin grid0.N, win0_4.index t = ![q0.val, q1.val, q2.val])

/-- WHAT POINT `t` WRITES BACK is tile `t` of `G3` of the arrays the region reads. -/
theorem flushed_eq (c : Dev nD) (t : Fin cfg0.N) :
    (dats m 0 c).flushed 4 t = ((cfg0.win 4).blk t).view.read (Elt Ideal)
      (G3 (V m c main_v0) (V m c main_v1) (V m c main_v6) (V m c main_v12)) := by
  show (cfg0.win 4).cut (grid0.coords t) ((dats m 0 c).after 4 t) = _
  rw [after0_4]
  unfold out0_4
  rw [View.canon_unit_zero hz]
  simp only [View.ld_unit_zero (S := S1x1024x64) hz, View.ld_unit_zero (S := S1x1024x1) hz, View.ld_unit_zero (S := S1x1x1024) hz]
  obtain ⟨e00, e01, e02, e10, e11, e12, e20, e21, e22, e30, e31, e32, b0, b1, b2⟩ := idx_facts t
  funext y
  show k0_pay1 (F := Ideal) (iblk m c 0 t) (iblk m c 1 t) (iblk m c 2 t) (iblk m c 3 t) y
    = G3 (V m c main_v0) (V m c main_v1) (V m c main_v6) (V m c main_v12) (((cfg0.win 4).blk t).view.emb y)
  have hy0 : (y 0).val < 1 := (y 0).isLt
  refine tile_eq_G3_at (V m c main_v0) (V m c main_v1) (V m c main_v6) (V m c main_v12)
    (iblk m c 0 t) (iblk m c 1 t) (iblk m c 2 t) (iblk m c 3 t) y (((cfg0.win 4).blk t).view.emb y)
    (fun d => ?_) (fun d => ?_) ?_ ?_
  · show V m c main_v0 (((cfg0.win 0).blk t).view.emb (ix3 (0 : Fin 1) (y 1) d)) = _
    refine congrArg (V m c main_v0) (funext fun a => Fin.ext ?_)
    match a with
    | ⟨0, _⟩ => show win0_0.index t (0 : Fin 3) * 1 + 1 * 0 = win0_4.index t (0 : Fin 3) * 1 + 1 * (y 0).val; omega
    | ⟨1, _⟩ => show win0_0.index t (1 : Fin 3) * 1024 + 1 * (y 1).val = win0_4.index t (1 : Fin 3) * 1024 + 1 * (y 1).val; omega
    | ⟨2, _⟩ => show win0_0.index t (2 : Fin 3) * 64 + 1 * d.val = d.val; omega
  · show V m c main_v1 (((cfg0.win 1).blk t).view.emb (ix3 (0 : Fin 1) (y 2) d)) = _
    refine congrArg (V m c main_v1) (funext fun a => Fin.ext ?_)
    match a with
    | ⟨0, _⟩ => show win0_1.index t (0 : Fin 3) * 1 + 1 * 0 = win0_4.index t (0 : Fin 3) * 1 + 1 * (y 0).val; omega
    | ⟨1, _⟩ => show win0_1.index t (1 : Fin 3) * 1024 + 1 * (y 2).val = win0_4.index t (2 : Fin 3) * 1024 + 1 * (y 2).val; omega
    | ⟨2, _⟩ => show win0_1.index t (2 : Fin 3) * 64 + 1 * d.val = d.val; omega
  · show V m c main_v6 (((cfg0.win 2).blk t).view.emb (ix3 (0 : Fin 1) (y 1) (0 : Fin 1))) = _
    refine congrArg (V m c main_v6) (funext fun a => Fin.ext ?_)
    match a with
    | ⟨0, _⟩ => show win0_2.index t (0 : Fin 3) * 1 + 1 * 0 = win0_4.index t (0 : Fin 3) * 1 + 1 * (y 0).val; omega
    | ⟨1, _⟩ => show win0_2.index t (1 : Fin 3) * 1024 + 1 * (y 1).val = win0_4.index t (1 : Fin 3) * 1024 + 1 * (y 1).val; omega
    | ⟨2, _⟩ => show win0_2.index t (2 : Fin 3) * 1 + 1 * 0 = 0; omega
  · show V m c main_v12 (((cfg0.win 3).blk t).view.emb (ix3 (0 : Fin 1) (0 : Fin 1) (y 2))) = _
    refine congrArg (V m c main_v12) (funext fun a => Fin.ext ?_)
    match a with
    | ⟨0, _⟩ => show win0_3.index t (0 : Fin 3) * 1 + 1 * 0 = win0_4.index t (0 : Fin 3) * 1 + 1 * (y 0).val; omega
    | ⟨1, _⟩ => show win0_3.index t (1 : Fin 3) * 1 + 1 * 0 = 0; omega
    | ⟨2, _⟩ => show win0_3.index t (2 : Fin 3) * 1024 + 1 * (y 2).val = win0_4.index t (2 : Fin 3) * 1024 + 1 * (y 2).val; omega

/-- An index of the array is in point `t`'s tile iff each coordinate is in the tile's range on its axis. -/
theorem mem_blk (t : Fin cfg0.N) (i : S16x2048x2048.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v13).slice (win0_4.rect t)).set ↔ _
  rw [View.set_slice_whole, Rect.mem_set_unit]
  exact Iff.rfl

/-- Every entry (n, i, j) lies in the tile (n, i / 1024, j / 1024), which some point writes back. -/
theorem cover (i : S16x2048x2048.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩ ⟨(i 2).val / 1024, by omega⟩
  have q0 : win0_4.index t (0 : Fin 3) = (i 0).val := congrFun ht 0
  have q1 : win0_4.index t (1 : Fin 3) = (i 1).val / 1024 := congrFun ht 1
  have q2 : win0_4.index t (2 : Fin 3) = (i 2).val / 1024 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- THE ARRAY after the region: `G3` of the four arrays the region reads. -/
theorem final (c : Dev nD) :
    (dats m 0 c).arrAt 4 cfg0.N = G3 (V m c main_v0) (V m c main_v1) (V m c main_v6) (V m c main_v12) :=
  (dats m 0 c).arrAt_eq_of_cover 4 _ (fun t _ => flushed_eq m c t) cover

end Cert.Rbf.Blocks

end
-- ==== Proof.HostPrefix.lean ====
/-
  The host operations around the tiled region, read at an index.

  The tiled region works on arrays whose two leading axes (of extents 2 and 8) are merged into one of
  extent 16. In row-major order the element at (b, h, i, d) of a [2, 8, 2048, 64] array sits at position
  ((b·8 + h)·2048 + i)·64 + d, which is the position of (8·b + h, i, d) in a [16, 2048, 64] array: merging
  the axes moves no element, it renames the pair (b, h) as the single coordinate 8·b + h. The same holds
  for the result, [16, 2048, 2048] split back into [2, 8, 2048, 2048].

  Between the two reshapes each merged argument x contributes its half-norm term: the products x·x are
  summed along the last axis starting from the constant 0, the [16, 2048] array of sums is given a trailing
  unit axis, and it is multiplied by the constant −½ spread over [16, 2048, 1]. Entry (n, i, 0) of this
  column is (−½)·(0 + Σ_d x(n, i, d)²). For the key argument the column's last two axes are then
  exchanged, so that entry (n, 0, j) of the resulting row is the column's entry (n, j, 0).
-/
import proofs.«156044_j75196287418964_2_alg».proof.KernelIdeal
import proofs.«156044_j75196287418964_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Pre

open Idealize.ShloMosaic Idealize.ShloMosaic.ValueIdx Cert.Rbf
open Cert.KernelIdeal Cert.KernelIdeal.Facts₀

variable [Cert.KernelIdeal.Facts]

/-- the first reshape read at the merged coordinate -/
theorem merge_apply (x : FVec Ideal S2x8x2048x64 .f32) (b : Fin 2) (h : Fin 8) (i : Fin 2048) (d : Fin 64) :
    shapeCast S16x2048x64 x shapeCasts_S2x8x2048x64_S16x2048x64 (ix3 (bh b h) i d) = x (ix4 b h i d) :=
  shapeCast_apply x shapeCasts_S2x8x2048x64_S16x2048x64 (ix3 (bh b h) i d) (ix4 b h i d) (by
    -- both positions are ((8·b + h)·2048 + i)·64 + d
    rw [Shape.rowMajor_val_four, Shape.rowMajor_val_three]
    show ((b.val * 8 + h.val) * 2048 + i.val) * 64 + d.val = ((8 * b.val + h.val) * 2048 + i.val) * 64 + d.val
    omega)

/-- the last reshape read at (b, h, i, j) -/
theorem split_apply (y : FVec Ideal S16x2048x2048 .f32) (b : Fin 2) (h : Fin 8) (i j : Fin 2048) :
    shapeCast S2x8x2048x2048 y shapeCasts_S16x2048x2048_S2x8x2048x2048 (ix4 b h i j) = y (ix3 (bh b h) i j) :=
  shapeCast_apply y shapeCasts_S16x2048x2048_S2x8x2048x2048 (ix4 b h i j) (ix3 (bh b h) i j) (by
    -- both positions are ((8·b + h)·2048 + i)·2048 + j
    rw [Shape.rowMajor_val_three, Shape.rowMajor_val_four]
    show ((8 * b.val + h.val) * 2048 + i.val) * 2048 + j.val = ((b.val * 8 + h.val) * 2048 + i.val) * 2048 + j.val
    omega)

/-- the half-norm column of a merged array, exactly as the host operations compose it -/
def col (x3 : FVec Ideal S16x2048x64 .f32) : FVec Ideal S16x2048x1 .f32 :=
  mulf (broadcastInDim S16x2048x1 ![] bcast_S_S16x2048x1 (constant (F := Ideal) S_ .f32 0xBF000000#32))
    (broadcastInDim S16x2048x1 ![0, 1] bcast_S16x2048_S16x2048x1_0_1
      (Host.reduceAdd (F := Ideal) (mulf x3 x3) (constant (F := Ideal) S_ .f32 0x00000000#32) reducesTo_S16x2048x64_S16x2048_d2 h_S_))

theorem col_apply (x3 : FVec Ideal S16x2048x64 .f32) (n : Fin 16) (i : Fin 2048) :
    col x3 (ix3 n i (0 : Fin 1)) = halfNegSq fun d => x3 (ix3 n i d) := by
  -- the spread constant −½ reads −½ everywhere
  have half : broadcastInDim S16x2048x1 ![] bcast_S_S16x2048x1 (constant (F := Ideal) S_ .f32 0xBF000000#32) (ix3 n i (0 : Fin 1))
      = Ideal.ofBits .f32 0xBF000000#32 :=
    broadcastInDim_apply _ bcast_S_S16x2048x1 (constant (F := Ideal) S_ .f32 0xBF000000#32) (ix3 n i (0 : Fin 1)) ix0 (fun a => a.elim0)
  -- the sums of squares along the last axis, read at (n, i): 0 + Σ_d x(n, i, d)²
  have sumSq : Host.reduceAdd (F := Ideal) (mulf x3 x3) (constant (F := Ideal) S_ .f32 0x00000000#32) reducesTo_S16x2048x64_S16x2048_d2 h_S_ (ix2 n i)
      = Ideal.ofBits .f32 0x00000000#32 + ∑ d : Fin 64, x3 (ix3 n i d) * x3 (ix3 n i d) := by
    simp only [Host.reduceAdd, Ideal.hostReduceAdd_def]
    rw [Ideal.hostReduceAdd_single reducesTo_S16x2048x64_S16x2048_d2 (by decide)]
    refine congrArg (_ + ·) (Finset.sum_congr rfl fun k _ => ?_)
    show mulf x3 x3 _ = mulf x3 x3 (ix3 n i k)
    exact congrArg (mulf x3 x3) (funext fun a => Fin.ext (by match a with | ⟨0, _⟩ => rfl | ⟨1, _⟩ => rfl | ⟨2, _⟩ => rfl))
  unfold col halfNegSq
  rw [mulf_apply, half]
  refine congrArg (_ * ·) ?_
  -- the trailing unit axis is new: the [16, 2048, 1] array at (n, i, 0) is the [16, 2048] array at (n, i)
  refine (broadcastInDim_apply _ bcast_S16x2048_S16x2048x1_0_1 _ (ix3 n i (0 : Fin 1)) (ix2 n i) (fun a => match a with
    | ⟨0, _⟩ => by show n.val = if (16 : Nat) = 1 then 0 else n.val; rw [if_neg (by decide)]
    | ⟨1, _⟩ => by show i.val = if (2048 : Nat) = 1 then 0 else i.val; rw [if_neg (by decide)])).trans ?_
  exact sumSq

/-- the same column transposed to a row -/
def row (x3 : FVec Ideal S16x2048x64 .f32) : FVec Ideal S16x1x2048 .f32 :=
  transpose S16x1x2048 [0, 2, 1] (col x3) transposes_S16x2048x1_S16x1x2048_0_2_1

theorem row_apply (x3 : FVec Ideal S16x2048x64 .f32) (n : Fin 16) (j : Fin 2048) :
    row x3 (ix3 n (0 : Fin 1) j) = halfNegSq fun d => x3 (ix3 n j d) :=
  -- entry (n, 0, j) of the row is entry (n, j, 0) of the column
  (transpose_ix3_021_apply (col x3) transposes_S16x2048x1_S16x1x2048_0_2_1 n (0 : Fin 1) j).trans (col_apply x3 n j)

end Cert.Rbf.Pre

end
-- ==== Proof.HostValues.lean ====
/-
  What the tiled region is given, and what is made of what it returns.

  Before the region the program prepares four arrays from its two arguments q and k, both of shape
  [2, 8, 2048, 64]:
    * the merged query array and the merged key array: the argument with its two leading axes joined
      into one of extent 16 (a re-reading of the same row-major sequence, nothing computed);
    * the query's half-norm column, of shape [16, 2048, 1]: the merged query array is squared entry by
      entry, the squares are summed over the last axis starting from the literal 0, the sums are kept as
      a column of width one, and the column is multiplied on the left by the literal −½ repeated
      over the column's shape;
    * the key's half-norm row, of shape [16, 1, 2048]: the same column formed from the merged key array,
      with its last two axes swapped.
  After the region one operation remains: the region's output array, of shape [16, 2048, 2048], is
  re-split into [2, 8, 2048, 2048], again the same row-major sequence.

  Each statement below names the composed term only; reading it at an index is done elsewhere.
-/
import proofs.«156044_j75196287418964_2_alg».proof.Proof.Gen.KernelIdeal.Frame
import Idealize.ShloMosaic.Lib.StableHlo.Run
import Idealize.ShloMosaic.Lib.Pipeline.Value
import Idealize.ShloMosaic.PureOps.Ideal

noncomputable section

namespace Cert.Rbf.Host

open Idealize.ShloMosaic Idealize.ShloMosaic.TcCoe Idealize.SL.Sem Cert.KernelIdeal Cert.KernelIdeal.Gen

variable (m : (ℓ : Loc nD τ sig) → Buf (Elt Ideal) ℓ)

/-- The merged query array: the first argument with its two leading axes joined. -/
theorem V_v0 (c : Dev nD) : (V m c main_v0 : S16x2048x64.Idx → Elt Ideal .f32)
    = shapeCast S16x2048x64 (m ((c : Thread nD τ).loc main_arg0)) shapeCasts_S2x8x2048x64_S16x2048x64 := by
  show StableHlo.after hostOps0 (fun b => m (c, b)) (Proc.devRef .tc main_v0) = _
  after_results
  rfl

/-- The merged key array: the second argument with its two leading axes joined. -/
theorem V_v1 (c : Dev nD) : (V m c main_v1 : S16x2048x64.Idx → Elt Ideal .f32)
    = shapeCast S16x2048x64 (m ((c : Thread nD τ).loc main_arg1)) shapeCasts_S2x8x2048x64_S16x2048x64 := by
  show StableHlo.after hostOps0 (fun b => m (c, b)) (Proc.devRef .tc main_v1) = _
  after_results
  rfl

/-- The query's half-norm column, as the host operations compose it over the merged query array:
    (−½ repeated) · (the sums 0 + Σ of squares over the last axis, kept as a column). -/
theorem V_v6 (c : Dev nD) : (V m c main_v6 : S16x2048x1.Idx → Elt Ideal .f32)
    = mulf (broadcastInDim S16x2048x1 ![] bcast_S_S16x2048x1 (constant (F := Ideal) S_ .f32 0xBF000000#32))
        (broadcastInDim S16x2048x1 ![0, 1] bcast_S16x2048_S16x2048x1_0_1
          (Host.reduceAdd (F := Ideal)
            (mulf (V m c main_v0 : S16x2048x64.Idx → Elt Ideal .f32) (V m c main_v0 : S16x2048x64.Idx → Elt Ideal .f32))
            (constant (F := Ideal) S_ .f32 0x00000000#32) reducesTo_S16x2048x64_S16x2048_d2 h_S_)) := by
  rw [V_v0 m c]
  show StableHlo.after hostOps0 (fun b => m (c, b)) (Proc.devRef .tc main_v6) = _
  after_results
  rfl

/-- The key's half-norm row: the same column formed over the merged key array, its last two axes swapped. -/
theorem V_v12 (c : Dev nD) : (V m c main_v12 : S16x1x2048.Idx → Elt Ideal .f32)
    = transpose S16x1x2048 [0, 2, 1]
        (mulf (broadcastInDim S16x2048x1 ![] bcast_S_S16x2048x1 (constant (F := Ideal) S_ .f32 0xBF000000#32))
          (broadcastInDim S16x2048x1 ![0, 1] bcast_S16x2048_S16x2048x1_0_1
            (Host.reduceAdd (F := Ideal)
              (mulf (V m c main_v1 : S16x2048x64.Idx → Elt Ideal .f32) (V m c main_v1 : S16x2048x64.Idx → Elt Ideal .f32))
              (constant (F := Ideal) S_ .f32 0x00000000#32) reducesTo_S16x2048x64_S16x2048_d2 h_S_)))
        transposes_S16x2048x1_S16x1x2048_0_2_1 := by
  rw [V_v1 m c]
  show StableHlo.after hostOps0 (fun b => m (c, b)) (Proc.devRef .tc main_v12) = _
  after_results
  rfl

/-- The program's result: the region's output array, re-split into [2, 8, 2048, 2048]. -/
theorem tail_v14 (c : Dev nD) :
    (Pipeline.afterTail₀ cfgs (dats m) 0 (V0 m) [hostOps1] c main_v14 : S2x8x2048x2048.Idx → Elt Ideal .f32)
      = shapeCast S2x8x2048x2048 ((dats m 0 c).arrAt 4 cfg0.N : S16x2048x2048.Idx → Elt Ideal .f32)
          shapeCasts_S16x2048x2048_S2x8x2048x2048 := by
  unfold Pipeline.afterTail₀
  show StableHlo.after hostOps1 _ (Proc.devRef .tc main_v14) = _
  after_results
  rw [Pipeline.withArrays_arr spec0 launch0.win.arr_inj c _ _ 4]
  rfl

end Cert.Rbf.Host

end
-- ==== Proof.Result.lean ====
/-
  The tiled program's result, as one function of its two arguments.

  Its host operations merge the two leading axes of each argument, form the half-norm column of the
  query and the half-norm row of the key, hand the four arrays to the tiled region, and split the
  region's [16, 2048, 2048] output back into [2, 8, 2048, 2048]. The region's output is `G3` of
  the four arrays; read at (b, h, i, j) through the split and the merge (both rename (b, h) as
  8·b + h and move nothing) it is `G` of the arguments.
-/
import proofs.«156044_j75196287418964_2_alg».proof.Proof.Blocks
import proofs.«156044_j75196287418964_2_alg».proof.Proof.HostPrefix
import proofs.«156044_j75196287418964_2_alg».proof.Proof.HostValues

noncomputable section

namespace Cert.Rbf.Result

open Idealize.ShloMosaic Idealize.ShloMosaic.TcCoe Idealize.ShloMosaic.ValueIdx Idealize.SL.Sem
open Cert.KernelIdeal Cert.KernelIdeal.Gen Cert.KernelIdeal.Facts₀ Cert.Rbf

variable (m : (ℓ : Loc nD τ sig) → Buf (Elt Ideal) ℓ) (ρ : Dev nD → PrngReg)

/-- The program's result array is `G` of its arguments. -/
theorem result_eq (c : Dev nD) :
    (Pipeline.afterTail₀ cfgs (dats m) 0 (V0 m) [hostOps1] c main_v14 : S2x8x2048x2048.Idx → Elt Ideal .f32)
      = G (m ((c : Thread nD τ).loc main_arg0)) (m ((c : Thread nD τ).loc main_arg1)) := by
  rw [Host.tail_v14, Blocks.final]
  funext o
  obtain ⟨b, h, i, j, rfl⟩ : ∃ b h i j, o = ix4 b h i j := ⟨o 0, o 1, o 2, o 3, eq_ix4 o⟩
  rw [Pre.split_apply]
  refine G_eq_G3 (m ((c : Thread nD τ).loc main_arg0)) (m ((c : Thread nD τ).loc main_arg1))
    (V m c main_v0) (V m c main_v1) (V m c main_v6) (V m c main_v12) ?_ ?_ ?_ ?_ b h i j
  · intro b h i d; rw [Host.V_v0]; exact Pre.merge_apply _ b h i d
  · intro b h i d; rw [Host.V_v1]; exact Pre.merge_apply _ b h i d
  · intro n i; rw [Host.V_v6]; exact Pre.col_apply _ n i
  · intro n j; rw [Host.V_v12]; exact Pre.row_apply _ n j

/-- The run, read: the result at `G` of the arguments, the arguments unchanged. -/
theorem run : θ_run defs (onTc (τ := τ) (main (F := Ideal))) ⟨m, fun _ => 0, ρ⟩ fun r => ∀ c : Dev nD,
      r.2.mem ((c.tc : Thread nD τ).loc main_v14) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v14 (Pipeline.mem_restRefs_of main_v14 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Rbf.Result

end
-- ==== Proof.RefIsG.lean ====
/-
  The reference program computes the specification G.

  Read at the entry (b, h, i, j), the reference's last stage is exp of the minimum of a three-term sum
  and the literal 0.  The three terms, in the order they are added:
    * the inner product  Σ_d q(b,h,i,d) · k(b,h,j,d)  of query row (b,h,i) with key row (b,h,j);
    * the query row's half-norm term  (−½) · (0 + Σ_d q(b,h,i,d)²): the squares are summed over the
      last axis starting from the literal 0 (so the sum enters as 0 + Σ), the sum is kept as a column
      of width one, scaled by the literal −½, and repeated along j;
    * the key row's half-norm term  (−½) · (0 + Σ_d k(b,h,j,d)²): formed the same way as a column,
      then turned into a row by swapping the last two axes and repeated along i.
  So an entry reads exactly one query row and one key row, and the sum is
  (inner product + query term) + key term, which is how G writes it.  The layout steps (repeat,
  swap of axes) only move coordinates; the four index equations below say which coordinates each
  read ends at.
-/
import proofs.«156044_j75196287418964_2_alg».proof.Proof.Gen.ReferenceIdeal.Read
import proofs.«156044_j75196287418964_2_alg».proof.Proof.Spec

noncomputable section

namespace Cert.Rbf.Ref

open Idealize.ShloMosaic Idealize.ShloMosaic.ValueIdx Cert.ReferenceIdeal Cert.ReferenceIdeal.Read

/-- The inner product's left read at (b, h, i, j), position d: query coordinates (b, h, i, d). -/
theorem lidx_eq (b : Fin 2) (h : Fin 8) (i j : Fin 2048) (d : Fin 64) :
    lidx_main_v10 (ix4 b h i j) d = ix4 b h i d :=
  funext fun a => Fin.ext (by match a with | ⟨0, _⟩ => rfl | ⟨1, _⟩ => rfl | ⟨2, _⟩ => rfl | ⟨3, _⟩ => rfl)

/-- The inner product's right read at (b, h, i, j), position d: key coordinates (b, h, j, d). -/
theorem ridx_eq (b : Fin 2) (h : Fin 8) (i j : Fin 2048) (d : Fin 64) :
    ridx_main_v10 (ix4 b h i j) d = ix4 b h j d :=
  funext fun a => Fin.ext (by match a with | ⟨0, _⟩ => rfl | ⟨1, _⟩ => rfl | ⟨2, _⟩ => rfl | ⟨3, _⟩ => rfl)

/-- The query term at (b, h, i, j) sums squares read at (b, h, i, d): repeating along j forgets j. -/
theorem qidx_eq (b : Fin 2) (h : Fin 8) (i j : Fin 2048) (d : Fin 64) :
    idx_main_v1 (idx_main_v2 (idx_main_v11 (ix4 b h i j))) d = ix4 b h i d :=
  funext fun a => Fin.ext (by match a with | ⟨0, _⟩ => rfl | ⟨1, _⟩ => rfl | ⟨2, _⟩ => rfl | ⟨3, _⟩ => rfl)

/-- The key term at (b, h, i, j) sums squares read at (b, h, j, d): the swap of the last two axes
    followed by repeating along i forgets i. -/
theorem kidx_eq (b : Fin 2) (h : Fin 8) (i j : Fin 2048) (d : Fin 64) :
    idx_main_v6 (idx_main_v7 (idx_main_v13 (idx_main_v14 (ix4 b h i j)))) d = ix4 b h j d :=
  funext fun a => Fin.ext (by match a with | ⟨0, _⟩ => rfl | ⟨1, _⟩ => rfl | ⟨2, _⟩ => rfl | ⟨3, _⟩ => rfl)

theorem ref_eq (q k : (⟨S2x8x2048x64, .f32⟩ : BufTy).Contents (Elt Ideal)) :
    val_main_v18 (F := Ideal) q k = Cert.Rbf.G q k := by
  funext o
  obtain ⟨b, h, i, j, rfl⟩ : ∃ b h i j, o = ix4 b h i j := ⟨o 0, o 1, o 2, o 3, eq_ix4 o⟩
  simp only [val_main_v18_apply, val_main_v17_apply, val_main_v16_apply, val_main_cst_3_apply,
    val_main_v15_apply, val_main_v14_apply, val_main_v13_apply, val_main_v12_apply,
    val_main_v11_apply, val_main_v10_apply, val_main_v9_apply, val_main_v8_apply,
    val_main_cst_2_apply, val_main_v7_apply, val_main_v6_apply, val_main_cst_1_apply,
    val_main_v5_apply, val_main_v4_apply, val_main_v3_apply, val_main_cst_0_apply,
    val_main_v2_apply, val_main_v1_apply, val_main_cst_apply, val_main_v0_apply]
  simp only [lidx_eq, ridx_eq, qidx_eq, kidx_eq]
  rfl

end Cert.Rbf.Ref

end
-- ==== Proof.lean ====
/-
  Two programs compute, for query rows q(b,h,i,·) and key rows k(b,h,j,·) of length 64, the clamped
  Gaussian similarity exp (min (⟨q_i, k_j⟩ − ½‖q_i‖² − ½‖k_j‖², 0)) at every (b, h, i, j). One does
  it in 1024 × 1024 tiles over arrays whose two leading axes are merged, with the half-norm terms
  formed once beforehand; the other with whole-array operations. Over the extended reals both are
  the function `Cert.Rbf.G` of Proof/Spec.lean: the same inner product (a matrix product into a
  zero accumulator and a whole-array contraction are the same finite sum), the same half-norm terms
  (−½)·(0 + Σ_d x_d²), added in the same order, the same clamp and exponential. No algebraic law
  beyond reading both sides index by index is needed, so finiteness of the inputs is never used.

  Proof/Tile.lean reads one tile entry; Proof/Blocks.lean turns the tiles into the whole array;
  Proof/HostPrefix.lean and Proof/HostValues.lean read the operations around the tiled region;
  Proof/Result.lean joins them; Proof/RefIsG.lean reads the whole-array program. The three frame
  claims are the generated frames (the whole-array program's is its run with the result dropped),
  and the idealization changed no operation, so its claim is trivial.
-/
import proofs.«156044_j75196287418964_2_alg».proof.Defs
import proofs.«156044_j75196287418964_2_alg».proof.Proof.Gen.Kernel
import proofs.«156044_j75196287418964_2_alg».proof.Proof.Gen.Kernel.Skeleton
import proofs.«156044_j75196287418964_2_alg».proof.Proof.Gen.Kernel.Launch
import proofs.«156044_j75196287418964_2_alg».proof.Proof.Gen.Kernel.Points
import proofs.«156044_j75196287418964_2_alg».proof.Proof.Gen.Kernel.Frame
import proofs.«156044_j75196287418964_2_alg».proof.Proof.Gen.KernelIdeal
import proofs.«156044_j75196287418964_2_alg».proof.Proof.Gen.KernelIdeal.Skeleton
import proofs.«156044_j75196287418964_2_alg».proof.Proof.Gen.KernelIdeal.Launch
import proofs.«156044_j75196287418964_2_alg».proof.Proof.Gen.KernelIdeal.Points
import proofs.«156044_j75196287418964_2_alg».proof.Proof.Gen.KernelIdeal.Frame
import proofs.«156044_j75196287418964_2_alg».proof.Proof.Gen.ReferenceIdeal
import proofs.«156044_j75196287418964_2_alg».proof.Proof.Gen.ReferenceIdeal.Run
import proofs.«156044_j75196287418964_2_alg».proof.Proof.Gen.ReferenceIdeal.Read
import proofs.«156044_j75196287418964_2_alg».proof.Proof.Gen.Pre_finite_inputs
import proofs.«156044_j75196287418964_2_alg».proof.Proof.Result
import proofs.«156044_j75196287418964_2_alg».proof.Proof.RefIsG
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at `G` of arguments that agree. -/
theorem algebraic : Cert.algebraic_KernelIdeal_ReferenceIdeal := by
  intro m ρ m' ρ' _ hagree
  refine ⟨fun c => Cert.Rbf.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Rbf.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.Rbf.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
